-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16x128x128 : Shape := ⟨4, ![128, 16, 128, 128]⟩
abbrev S_ : Shape := ⟨0, ![]⟩

class Facts : Prop where
  bcast_S_S128x16x128x128 : S_.BroadcastsInDim S128x16x128x128 (![] : Fin 0 → Fin S128x16x128x128.rank)
  reducesTo_S128x16x128x128_S_d0_1_2_3 : S128x16x128x128.ReducesTo [0, 1, 2, 3] S_
  h_S_ : 0 < S_.numel

variable [Facts]

def fn {F : FTy → Type} [FloatOps F] (main_arg0 : FVec F S128x16x128x128 .f32) : IVec S_ 1 :=
  let main_v0 : FVec F S128x16x128x128 .f32 := Host.absf main_arg0
  let main_cst : FVec F S_ .f32 := constant S_ .f32 0x7F800000#32
  let main_v1 : FVec F S128x16x128x128 .f32 := broadcastInDim S128x16x128x128 ![] bcast_S_S128x16x128x128 main_cst
  let main_v2 : IVec S128x16x128x128 1 := cmpf .olt main_v0 main_v1
  let main_c : IVec S_ 1 := constantI S_ 1 1#1
  let main_v3 : IVec S_ 1 := (fun x v => Host.reduce IntOp.andi x v reducesTo_S128x16x128x128_S_d0_1_2_3 h_S_) main_v2 main_c
  main_v3
-- ==== Kernel.lean ====
abbrev S128x16x128x128 : Shape := ⟨4, ![128, 16, 128, 128]⟩
abbrev S128x64x128x128 : Shape := ⟨4, ![128, 64, 128, 128]⟩
abbrev S4x16x128x128 : Shape := ⟨4, ![4, 16, 128, 128]⟩
abbrev S4x64x128x128 : Shape := ⟨4, ![4, 64, 128, 128]⟩
abbrev S4x16x2x128 : Shape := ⟨4, ![4, 16, 2, 128]⟩
abbrev S4x16x132x128 : Shape := ⟨4, ![4, 16, 132, 128]⟩
abbrev S4x16x132x2 : Shape := ⟨4, ![4, 16, 132, 2]⟩
abbrev S4x16x132x132 : Shape := ⟨4, ![4, 16, 132, 132]⟩

abbrev nBuf : Space → Nat
  | .hbm => 2
  | .vmem => 4
  | .smem => 0
  | _ => 0

abbrev bufTy : (tb : Table) → Fin (tcTables nBuf tb) → BufTy
  | .hbm, ⟨0, _⟩ => ⟨S128x16x128x128, .f32⟩
  | .hbm, ⟨1, _⟩ => ⟨S128x64x128x128, .f32⟩
  | .local _ .vmem, ⟨0, _⟩ => ⟨S4x16x128x128, .f32⟩
  | .local _ .vmem, ⟨1, _⟩ => ⟨S4x16x128x128, .f32⟩
  | .local _ .vmem, ⟨2, _⟩ => ⟨S4x64x128x128, .f32⟩
  | .local _ .vmem, ⟨3, _⟩ => ⟨S4x64x128x128, .f32⟩
  | _, _ => ⟨S128x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x16x128x128_S4x16x128x128_0_0_0_0 : ∀ a, (![0, 0, 0, 0] : Fin 4 → Nat) a + S4x16x128x128.size a ≤ S4x16x128x128.size a
  h_S4x16x128x128 : 0 < S4x16x128x128.numel
  concatenates_S4x16x2x128_S4x16x128x128_S4x16x2x128_S4x16x132x128_d2 : Shape.Concatenates [S4x16x2x128, S4x16x128x128, S4x16x2x128] S4x16x132x128 2
  concatenates_S4x16x132x2_S4x16x132x128_S4x16x132x2_S4x16x132x132_d3 : Shape.Concatenates [S4x16x132x2, S4x16x132x128, S4x16x132x2] S4x16x132x132 3
  slices_S4x16x132x132_o0_0_2_0_S4x16x128x128 : S4x16x132x132.Slices ![0, 0, 2, 0] S4x16x128x128
  slices_S4x16x132x132_o0_0_2_1_S4x16x128x128 : S4x16x132x132.Slices ![0, 0, 2, 1] S4x16x128x128
  slices_S4x16x132x132_o0_0_2_2_S4x16x128x128 : S4x16x132x132.Slices ![0, 0, 2, 2] S4x16x128x128
  slices_S4x16x132x132_o0_0_2_3_S4x16x128x128 : S4x16x132x132.Slices ![0, 0, 2, 3] S4x16x128x128
  slices_S4x16x132x132_o0_0_2_4_S4x16x128x128 : S4x16x132x132.Slices ![0, 0, 2, 4] S4x16x128x128
  inb_S4x64x128x128_S4x16x128x128_0_0_0_0 : ∀ a, (![0, 0, 0, 0] : Fin 4 → Nat) a + S4x16x128x128.size a ≤ S4x64x128x128.size a
  slices_S4x16x132x132_o0_0_0_2_S4x16x128x128 : S4x16x132x132.Slices ![0, 0, 0, 2] S4x16x128x128
  slices_S4x16x132x132_o0_0_1_2_S4x16x128x128 : S4x16x132x132.Slices ![0, 0, 1, 2] S4x16x128x128
  slices_S4x16x132x132_o0_0_3_2_S4x16x128x128 : S4x16x132x132.Slices ![0, 0, 3, 2] S4x16x128x128
  slices_S4x16x132x132_o0_0_4_2_S4x16x128x128 : S4x16x132x132.Slices ![0, 0, 4, 2] S4x16x128x128
  inb_S4x64x128x128_S4x16x128x128_0_16_0_0 : ∀ a, (![0, 16, 0, 0] : Fin 4 → Nat) a + S4x16x128x128.size a ≤ S4x64x128x128.size a
  slices_S4x16x132x132_o0_0_0_0_S4x16x128x128 : S4x16x132x132.Slices ![0, 0, 0, 0] S4x16x128x128
  slices_S4x16x132x132_o0_0_1_1_S4x16x128x128 : S4x16x132x132.Slices ![0, 0, 1, 1] S4x16x128x128
  slices_S4x16x132x132_o0_0_3_3_S4x16x128x128 : S4x16x132x132.Slices ![0, 0, 3, 3] S4x16x128x128
  slices_S4x16x132x132_o0_0_4_4_S4x16x128x128 : S4x16x132x132.Slices ![0, 0, 4, 4] S4x16x128x128
  inb_S4x64x128x128_S4x16x128x128_0_32_0_0 : ∀ a, (![0, 32, 0, 0] : Fin 4 → Nat) a + S4x16x128x128.size a ≤ S4x64x128x128.size a
  slices_S4x16x132x132_o0_0_0_4_S4x16x128x128 : S4x16x132x132.Slices ![0, 0, 0, 4] S4x16x128x128
  slices_S4x16x132x132_o0_0_1_3_S4x16x128x128 : S4x16x132x132.Slices ![0, 0, 1, 3] S4x16x128x128
  slices_S4x16x132x132_o0_0_3_1_S4x16x128x128 : S4x16x132x132.Slices ![0, 0, 3, 1] S4x16x128x128
  slices_S4x16x132x132_o0_0_4_0_S4x16x128x128 : S4x16x132x132.Slices ![0, 0, 4, 0] S4x16x128x128
  inb_S4x64x128x128_S4x16x128x128_0_48_0_0 : ∀ a, (![0, 48, 0, 0] : Fin 4 → Nat) a + S4x16x128x128.size a ≤ S4x64x128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16x128x128.size a ≤ S128x16x128x128.size a
  hwx0_0 : ∀ i : grid0.Coords, EltTy.bits .f32 = 32 ∨ (Rect.block (s := S128x16x128x128) S4x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x128x128.size a ≤ S128x64x128x128.size a
  hwx0_1 : ∀ i : grid0.Coords, EltTy.bits .f32 = 32 ∨ (Rect.block (s := S128x64x128x128) S4x64x128x128.size (cc0_transform_1 i) (hinb0_1 i)).WholeWords (EltTy.packing .f32)

variable [Facts₀]

abbrev win0_0 : Pipeline.Window sig grid0 :=
  Pipeline.Window.ofSpec (Memref.whole main_arg0) S4x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x16x128x128 : Shape := ⟨4, ![128, 16, 128, 128]⟩
abbrev S_ : Shape := ⟨0, ![]⟩
abbrev S128x16x132x132 : Shape := ⟨4, ![128, 16, 132, 132]⟩
abbrev S128x64x128x128 : Shape := ⟨4, ![128, 64, 128, 128]⟩

abbrev nBuf : Space → Nat
  | .hbm => 53
  | .vmem => 0
  | .smem => 0
  | _ => 0

abbrev bufTy : (tb : Table) → Fin (tcTables nBuf tb) → BufTy
  | .hbm, ⟨0, _⟩ => ⟨S128x16x128x128, .f32⟩
  | .hbm, ⟨1, _⟩ => ⟨S_, .i32⟩
  | .hbm, ⟨2, _⟩ => ⟨S_, .f32⟩
  | .hbm, ⟨3, _⟩ => ⟨S128x16x132x132, .f32⟩
  | .hbm, ⟨4, _⟩ => ⟨S128x16x128x128, .f32⟩
  | .hbm, ⟨5, _⟩ => ⟨S_, .f32⟩
  | .hbm, ⟨6, _⟩ => ⟨S128x16x128x128, .f32⟩
  | .hbm, ⟨7, _⟩ => ⟨S128x16x128x128, .f32⟩
  | .hbm, ⟨8, _⟩ => ⟨S128x16x128x128, .f32⟩
  | .hbm, ⟨9, _⟩ => ⟨S128x16x128x128, .f32⟩
  | .hbm, ⟨10, _⟩ => ⟨S128x16x128x128, .f32⟩
  | .hbm, ⟨11, _⟩ => ⟨S128x16x128x128, .f32⟩
  | .hbm, ⟨12, _⟩ => ⟨S128x16x128x128, .f32⟩
  | .hbm, ⟨13, _⟩ => ⟨S128x16x128x128, .f32⟩
  | .hbm, ⟨14, _⟩ => ⟨S128x16x128x128, .f32⟩
  | .hbm, ⟨15, _⟩ => ⟨S128x16x128x128, .f32⟩
  | .hbm, ⟨16, _⟩ => ⟨S128x16x128x128, .f32⟩
  | .hbm, ⟨17, _⟩ => ⟨S_, .f32⟩
  | .hbm, ⟨18, _⟩ => ⟨S128x16x128x128, .f32⟩
  | .hbm, ⟨19, _⟩ => ⟨S128x16x128x128, .f32⟩
  | .hbm, ⟨20, _⟩ => ⟨S128x16x128x128, .f32⟩
  | .hbm, ⟨21, _⟩ => ⟨S128x16x128x128, .f32⟩
  | .hbm, ⟨22, _⟩ => ⟨S128x16x128x128, .f32⟩
  | .hbm, ⟨23, _⟩ => ⟨S128x16x128x128, .f32⟩
  | .hbm, ⟨24, _⟩ => ⟨S128x16x128x128, .f32⟩
  | .hbm, ⟨25, _⟩ => ⟨S128x16x128x128, .f32⟩
  | .hbm, ⟨26, _⟩ => ⟨S128x16x128x128, .f32⟩
  | .hbm, ⟨27, _⟩ => ⟨S128x16x128x128, .f32⟩
  | .hbm, ⟨28, _⟩ => ⟨S128x16x128x128, .f32⟩
  | .hbm, ⟨29, _⟩ => ⟨S_, .f32⟩
  | .hbm, ⟨30, _⟩ => ⟨S128x16x128x128, .f32⟩
  | .hbm, ⟨31, _⟩ => ⟨S128x16x128x128, .f32⟩
  | .hbm, ⟨32, _⟩ => ⟨S128x16x128x128, .f32⟩
  | .hbm, ⟨33, _⟩ => ⟨S128x16x128x128, .f32⟩
  | .hbm, ⟨34, _⟩ => ⟨S128x16x128x128, .f32⟩
  | .hbm, ⟨35, _⟩ => ⟨S128x16x128x128, .f32⟩
  | .hbm, ⟨36, _⟩ => ⟨S128x16x128x128, .f32⟩
  | .hbm, ⟨37, _⟩ => ⟨S128x16x128x128, .f32⟩
  | .hbm, ⟨38, _⟩ => ⟨S128x16x128x128, .f32⟩
  | .hbm, ⟨39, _⟩ => ⟨S128x16x128x128, .f32⟩
  | .hbm, ⟨40, _⟩ => ⟨S128x16x128x128, .f32⟩
  | .hbm, ⟨41, _⟩ => ⟨S_, .f32⟩
  | .hbm, ⟨42, _⟩ => ⟨S128x16x128x128, .f32⟩
  | .hbm, ⟨43, _⟩ => ⟨S128x16x128x128, .f32⟩
  | .hbm, ⟨44, _⟩ => ⟨S128x16x128x128, .f32⟩
  | .hbm, ⟨45, _⟩ => ⟨S128x16x128x128, .f32⟩
  | .hbm, ⟨46, _⟩ => ⟨S128x16x128x128, .f32⟩
  | .hbm, ⟨47, _⟩ => ⟨S128x16x128x128, .f32⟩
  | .hbm, ⟨48, _⟩ => ⟨S128x16x128x128, .f32⟩
  | .hbm, ⟨49, _⟩ => ⟨S128x16x128x128, .f32⟩
  | .hbm, ⟨50, _⟩ => ⟨S128x16x128x128, .f32⟩
  | .hbm, ⟨51, _⟩ => ⟨S128x16x128x128, .f32⟩
  | .hbm, ⟨52, _⟩ => ⟨S128x64x128x128, .f32⟩
  | _, _ => ⟨S128x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]

class Facts₀ : Prop where
  pads_S128x16x128x128_S128x16x132x132_000_000_220_220 : S128x16x128x128.Pads (![0, 0, 2, 2] : Fin 4 → Nat) ![0, 0, 2, 2] ![0, 0, 0, 0] S128x16x132x132
  h_S_ : 0 < S_.numel
  slices_S128x16x132x132_S128x16x128x128_0_0_2_0 : S128x16x132x132.Slices ![0, 0, 2, 0] S128x16x128x128
  bcast_S_S128x16x128x128 : S_.BroadcastsInDim S128x16x128x128 (![] : Fin 0 → Fin S128x16x128x128.rank)
  slices_S128x16x132x132_S128x16x128x128_0_0_2_1 : S128x16x132x132.Slices ![0, 0, 2, 1] S128x16x128x128
  slices_S128x16x132x132_S128x16x128x128_0_0_2_2 : S128x16x132x132.Slices ![0, 0, 2, 2] S128x16x128x128
  slices_S128x16x132x132_S128x16x128x128_0_0_2_3 : S128x16x132x132.Slices ![0, 0, 2, 3] S128x16x128x128
  slices_S128x16x132x132_S128x16x128x128_0_0_2_4 : S128x16x132x132.Slices ![0, 0, 2, 4] S128x16x128x128
  slices_S128x16x132x132_S128x16x128x128_0_0_0_2 : S128x16x132x132.Slices ![0, 0, 0, 2] S128x16x128x128
  slices_S128x16x132x132_S128x16x128x128_0_0_1_2 : S128x16x132x132.Slices ![0, 0, 1, 2] S128x16x128x128
  slices_S128x16x132x132_S128x16x128x128_0_0_3_2 : S128x16x132x132.Slices ![0, 0, 3, 2] S128x16x128x128
  slices_S128x16x132x132_S128x16x128x128_0_0_4_2 : S128x16x132x132.Slices ![0, 0, 4, 2] S128x16x128x128
  slices_S128x16x132x132_S128x16x128x128_0_0_0_0 : S128x16x132x132.Slices ![0, 0, 0, 0] S128x16x128x128
  slices_S128x16x132x132_S128x16x128x128_0_0_1_1 : S128x16x132x132.Slices ![0, 0, 1, 1] S128x16x128x128
  slices_S128x16x132x132_S128x16x128x128_0_0_3_3 : S128x16x132x132.Slices ![0, 0, 3, 3] S128x16x128x128
  slices_S128x16x132x132_S128x16x128x128_0_0_4_4 : S128x16x132x132.Slices ![0, 0, 4, 4] S128x16x128x128
  slices_S128x16x132x132_S128x16x128x128_0_0_0_4 : S128x16x132x132.Slices ![0, 0, 0, 4] S128x16x128x128
  slices_S128x16x132x132_S128x16x128x128_0_0_1_3 : S128x16x132x132.Slices ![0, 0, 1, 3] S128x16x128x128
  slices_S128x16x132x132_S128x16x128x128_0_0_3_1 : S128x16x132x132.Slices ![0, 0, 3, 1] S128x16x128x128
  slices_S128x16x132x132_S128x16x128x128_0_0_4_0 : S128x16x132x132.Slices ![0, 0, 4, 0] S128x16x128x128
  concatenates_S128x16x128x128_S128x16x128x128_S128x16x128x128_S128x16x128x128_S128x64x128x128_d1 : Shape.Concatenates [S128x16x128x128, S128x16x128x128, S128x16x128x128, S128x16x128x128] S128x64x128x128 1

variable [Facts₀]

class Facts : Prop extends Facts₀ where

variable [Facts]
-- ==== Proof.Spec.lean ====
/-
  Directional five-in-a-row sums over a zero-bordered board, as ONE function of the board array.

  A board array `x` has shape [N, 16, 128, 128]: batch, channel, row, column. Around every 128 × 128 board lies a border of
  zeros, two cells wide, so the bordered board has 132 rows and 132 columns; `padRead x n c h w` is the bordered board
  of batch `n` and channel `c` at bordered row `h` and bordered column `w`: the entry `x[n, c, h - 2, w - 2]` when both
  `h` and `w` lie in [2, 130), and zero otherwise (and zero when `n` or `c` is no coordinate of the array).

  The result array has shape [N, 64, 128, 128]. Its channel `16 d + c` holds direction `d` of input channel `c`; at row `r`
  and column `s` it is the sum, added from left to right over k = 0, …, 4, of the bordered board at
      (2 + r, k + s)       for d = 0, the horizontal line through the cell,
      (k + r, 2 + s)       for d = 1, the vertical line,
      (k + r, k + s)       for d = 2, the main diagonal,
      (k + r, 4 - k + s)   for d = 3, the anti-diagonal.
  Bordered cell (2 + r, 2 + s) is cell (r, s) of the board, so each line is centred on the cell.

  Everything is stated over natural-number coordinates, so that moving along the batch axis (a block of four batches
  inside the array of 128) is arithmetic on one coordinate: `padRead_block`, `dirSums_block`.
-/
import Idealize.ShloMosaic.PureOps.Ideal
import Idealize.ShloMosaic.Lib.ValueIdx

noncomputable section

namespace Cert.BoxSum

open Idealize.ShloMosaic Idealize.ShloMosaic.ValueIdx

/-- The shape of `N` batches of sixteen 128 × 128 boards. -/
abbrev Board (N : ℕ) : Shape := ⟨4, ![N, 16, 128, 128]⟩
/-- The shape of their directional sums: four directions for each of the sixteen channels. -/
abbrev Sums (N : ℕ) : Shape := ⟨4, ![N, 64, 128, 128]⟩

/-- The bordered board of batch `n`, channel `c` at bordered row `h`, bordered column `w`. -/
def padRead {N : ℕ} (x : (Board N).Idx → EReal) (n c h w : ℕ) : EReal :=
  if hh : n < N ∧ c < 16 ∧ (2 ≤ h ∧ h < 130) ∧ (2 ≤ w ∧ w < 130) then
    x (ix4 ⟨n, hh.1⟩ ⟨c, hh.2.1⟩ ⟨h - 2, by omega⟩ ⟨w - 2, by omega⟩)
  else 0

/-- Five terms added from left to right. -/
def sum5 (f : ℕ → EReal) : EReal := f 0 + f 1 + f 2 + f 3 + f 4

/-- The bordered row of term `k` of direction `d`, relative to the cell's row. -/
def rowOf : ℕ → ℕ → ℕ
  | 0, _ => 2
  | _, k => k

/-- The bordered column of term `k` of direction `d`, relative to the cell's column. -/
def colOf : ℕ → ℕ → ℕ
  | 0, k => k
  | 1, _ => 2
  | 2, k => k
  | _, k => 4 - k

/-- The four directional sums of every channel of every batch. -/
def dirSums {N : ℕ} (x : (Board N).Idx → EReal) : (Sums N).Idx → EReal := fun j =>
  sum5 fun k => padRead x (j 0).val ((j 1).val % 16) (rowOf ((j 1).val / 16) k + (j 2).val) (colOf ((j 1).val / 16) k + (j 3).val)

/-- The sums at an index whose coordinates are known: batch `n`, direction `d` of input channel `c`, row `r`, column `s`. -/
theorem dirSums_at {N : ℕ} (x : (Board N).Idx → EReal) (j : (Sums N).Idx) (n d c r s : ℕ) (hc : c < 16)
    (h0 : (j 0).val = n) (h1 : (j 1).val = 16 * d + c) (h2 : (j 2).val = r) (h3 : (j 3).val = s) :
    dirSums x j = sum5 fun k => padRead x n c (rowOf d k + r) (colOf d k + s) := by
  have e1 : (j 1).val % 16 = c := by omega
  have e2 : (j 1).val / 16 = d := by omega
  unfold dirSums
  rw [e1, e2, h0, h2, h3]

/-- A block `v` of four batches that sits at batches `4 T, …, 4 T + 3` of an array `X` of 128 has, with its border, the
    array's bordered boards of those batches. -/
theorem padRead_block (v : (Board 4).Idx → EReal) (X : (Board 128).Idx → EReal) (T : ℕ) (hT : T < 32)
    (hv : ∀ (y : (Board 4).Idx) (k : (Board 128).Idx), (k 0).val = 4 * T + (y 0).val → (k 1).val = (y 1).val →
      (k 2).val = (y 2).val → (k 3).val = (y 3).val → v y = X k)
    (n c h w : ℕ) (hn : n < 4) : padRead v n c h w = padRead X (4 * T + n) c h w := by
  unfold padRead
  by_cases hh : c < 16 ∧ (2 ≤ h ∧ h < 130) ∧ (2 ≤ w ∧ w < 130)
  · rw [dif_pos ⟨hn, hh⟩, dif_pos ⟨by omega, hh⟩]
    exact hv _ _ rfl rfl rfl rfl
  · rw [dif_neg (fun h' => hh h'.2), dif_neg (fun h' => hh h'.2)]

/-- So the block's directional sums are the array's, at the index four-times-`T` batches further on. -/
theorem dirSums_block (v : (Board 4).Idx → EReal) (X : (Board 128).Idx → EReal) (T : ℕ) (hT : T < 32)
    (hv : ∀ (y : (Board 4).Idx) (k : (Board 128).Idx), (k 0).val = 4 * T + (y 0).val → (k 1).val = (y 1).val →
      (k 2).val = (y 2).val → (k 3).val = (y 3).val → v y = X k)
    (y : (Sums 4).Idx) (i : (Sums 128).Idx) (h0 : (i 0).val = 4 * T + (y 0).val) (h1 : (i 1).val = (y 1).val)
    (h2 : (i 2).val = (y 2).val) (h3 : (i 3).val = (y 3).val) : dirSums v y = dirSums X i := by
  have hy0 : (y 0).val < 4 := (y 0).isLt
  unfold dirSums
  rw [h0, h1, h2, h3]
  exact congrArg sum5 (funext fun k => padRead_block v X T hT hv _ _ _ _ hy0)

end Cert.BoxSum

end
-- ==== Proof.BlockValue.lean ====
/-
  What one grid point of the kernel leaves in its output block: the directional sums of its input block.

  The kernel works on a block `v` of four batches. It lays two zero rows above and below every board, then two zero
  columns left and right, so the bordered block read at bordered coordinates is `padRead` of the block (`bordered`). A
  window of the bordered block, 128 × 128 cells from bordered row `a` and column `b`, read at cell (r, s) is the
  bordered block at (a + r, b + s) (`window`). Each direction adds five such windows from left to right (`pay_hor`,
  `pay_ver`, `pay_diag`, `pay_adiag`) and is stored into its own sixteen channels of the output block; the four stores
  tile the block, so the block is `dirSums` of the input block (`block_eq`).
-/
import proofs.«131251_j37701222924357_1_alg».proof.Proof.Gen.KernelIdeal.Frame
import proofs.«131251_j37701222924357_1_alg».proof.Proof.Spec
import Idealize.ShloMosaic.Lib.Pipeline.Value
import Idealize.ShloMosaic.PureOps.Ideal.Laws

noncomputable section

namespace Cert.KernelIdeal.BlockValue

open Cert.KernelIdeal Cert.KernelIdeal.Gen
open Idealize.ShloMosaic Idealize.ShloMosaic.ValueIdx Cert.BoxSum

/-- The float zero, as the kernel writes it. -/
abbrev z : Ideal .f32 := Scalar.ofBits (F := Ideal) .f32 0x00000000#32

/-- Its splat is the extended real zero everywhere. -/
theorem splat_zero {s : Shape} (i : s.Idx) : broadcast s z i = 0 := Ideal.ofBits_zero_f32

/-- The block with two zero rows above and below every board. -/
def withRows (v0 : FVec Ideal S4x16x128x128 .f32) : FVec Ideal S4x16x132x128 .f32 :=
  concatenate S4x16x132x128 2 [⟨S4x16x2x128, broadcast S4x16x2x128 z⟩, ⟨S4x16x128x128, v0⟩, ⟨S4x16x2x128, broadcast S4x16x2x128 z⟩]
    concatenates_S4x16x2x128_S4x16x128x128_S4x16x2x128_S4x16x132x128_d2

/-- The bordered block is that with two zero columns left and right. -/
theorem bordered_eq (v0 : FVec Ideal S4x16x128x128 .f32) :
    k0_pay2 (F := Ideal) v0
      = concatenate S4x16x132x132 3 [⟨S4x16x132x2, broadcast S4x16x132x2 z⟩, ⟨S4x16x132x128, withRows v0⟩, ⟨S4x16x132x2, broadcast S4x16x132x2 z⟩]
          concatenates_S4x16x132x2_S4x16x132x128_S4x16x132x2_S4x16x132x132_d3 := rfl

/-- The rows: bordered row `h` of the block at column `s` is bordered cell (h, s + 2). -/
theorem withRows_apply (v0 : FVec Ideal S4x16x128x128 .f32) (p : S4x16x132x128.Idx) :
    withRows v0 p = padRead (N := 4) v0 (p 0).val (p 1).val (p 2).val ((p 3).val + 2) := by
  have h0 : (p 0).val < 4 := (p 0).isLt
  have h1 : (p 1).val < 16 := (p 1).isLt
  have h2 : (p 2).val < 132 := (p 2).isLt
  have h3 : (p 3).val < 128 := (p 3).isLt
  have c3 : 2 ≤ (p 3).val + 2 ∧ (p 3).val + 2 < 130 := by omega
  unfold withRows padRead
  by_cases c2 : 2 ≤ (p 2).val ∧ (p 2).val < 130
  · rw [dif_pos ⟨h0, h1, c2, c3⟩]
    exact concatenate_apply_piece (2 : Fin 4) _ _ p 1 (by show (1 : ℕ) < 3; omega) S4x16x128x128 v0 rfl rfl 2 rfl
      (ix4 ⟨(p 0).val, h0⟩ ⟨(p 1).val, h1⟩ ⟨(p 2).val - 2, by omega⟩ ⟨(p 3).val + 2 - 2, by omega⟩)
      (fun b hb => match b with
        | ⟨0, _⟩ => rfl | ⟨1, _⟩ => rfl | ⟨2, _⟩ => absurd rfl hb
        | ⟨3, _⟩ => by show (p 3).val + 2 - 2 = (p 3).val; omega)
      (by show 2 + ((p 2).val - 2) = (p 2).val; omega)
  · rw [dif_neg (fun h' => c2 h'.2.2.1)]
    by_cases c2' : (p 2).val < 2
    · exact Eq.trans (concatenate_apply_piece (2 : Fin 4) _ _ p 0 (by show (0 : ℕ) < 3; omega) S4x16x2x128
        (broadcast S4x16x2x128 z) rfl rfl 0 rfl
        (ix4 ⟨(p 0).val, h0⟩ ⟨(p 1).val, h1⟩ ⟨(p 2).val, c2'⟩ ⟨(p 3).val, h3⟩)
        (fun b hb => match b with | ⟨0, _⟩ => rfl | ⟨1, _⟩ => rfl | ⟨2, _⟩ => absurd rfl hb | ⟨3, _⟩ => rfl)
        (by show 0 + (p 2).val = (p 2).val; omega)) (splat_zero _)
    · exact Eq.trans (concatenate_apply_piece (2 : Fin 4) _ _ p 2 (by show (2 : ℕ) < 3; omega) S4x16x2x128
        (broadcast S4x16x2x128 z) rfl rfl 130 rfl
        (ix4 ⟨(p 0).val, h0⟩ ⟨(p 1).val, h1⟩ ⟨(p 2).val - 130, by omega⟩ ⟨(p 3).val, h3⟩)
        (fun b hb => match b with | ⟨0, _⟩ => rfl | ⟨1, _⟩ => rfl | ⟨2, _⟩ => absurd rfl hb | ⟨3, _⟩ => rfl)
        (by show 130 + ((p 2).val - 130) = (p 2).val; omega)) (splat_zero _)

/-- The bordered block at bordered coordinates: the block two rows and two columns back off the border, zero on it. -/
theorem bordered (v0 : FVec Ideal S4x16x128x128 .f32) (q : S4x16x132x132.Idx) :
    k0_pay2 (F := Ideal) v0 q = padRead (N := 4) v0 (q 0).val (q 1).val (q 2).val (q 3).val := by
  have h0 : (q 0).val < 4 := (q 0).isLt
  have h1 : (q 1).val < 16 := (q 1).isLt
  have h2 : (q 2).val < 132 := (q 2).isLt
  have h3 : (q 3).val < 132 := (q 3).isLt
  rw [bordered_eq]
  by_cases c3 : 2 ≤ (q 3).val ∧ (q 3).val < 130
  · have e : (q 3).val - 2 + 2 = (q 3).val := by omega
    have hw := withRows_apply v0 (ix4 ⟨(q 0).val, h0⟩ ⟨(q 1).val, h1⟩ ⟨(q 2).val, h2⟩ ⟨(q 3).val - 2, by omega⟩)
    refine Eq.trans (concatenate_apply_piece (3 : Fin 4) _ _ q 1 (by show (1 : ℕ) < 3; omega) S4x16x132x128
      (withRows v0) rfl rfl 2 rfl
      (ix4 ⟨(q 0).val, h0⟩ ⟨(q 1).val, h1⟩ ⟨(q 2).val, h2⟩ ⟨(q 3).val - 2, by omega⟩)
      (fun b hb => match b with | ⟨0, _⟩ => rfl | ⟨1, _⟩ => rfl | ⟨2, _⟩ => rfl | ⟨3, _⟩ => absurd rfl hb)
      (by show 2 + ((q 3).val - 2) = (q 3).val; omega)) (hw.trans ?_)
    show padRead v0 (q 0).val (q 1).val (q 2).val ((q 3).val - 2 + 2) = _
    rw [e]
  · unfold padRead
    rw [dif_neg (fun h' => c3 h'.2.2.2)]
    by_cases c3' : (q 3).val < 2
    · exact Eq.trans (concatenate_apply_piece (3 : Fin 4) _ _ q 0 (by show (0 : ℕ) < 3; omega) S4x16x132x2
        (broadcast S4x16x132x2 z) rfl rfl 0 rfl
        (ix4 ⟨(q 0).val, h0⟩ ⟨(q 1).val, h1⟩ ⟨(q 2).val, h2⟩ ⟨(q 3).val, c3'⟩)
        (fun b hb => match b with | ⟨0, _⟩ => rfl | ⟨1, _⟩ => rfl | ⟨2, _⟩ => rfl | ⟨3, _⟩ => absurd rfl hb)
        (by show 0 + (q 3).val = (q 3).val; omega)) (splat_zero _)
    · exact Eq.trans (concatenate_apply_piece (3 : Fin 4) _ _ q 2 (by show (2 : ℕ) < 3; omega) S4x16x132x2
        (broadcast S4x16x132x2 z) rfl rfl 130 rfl
        (ix4 ⟨(q 0).val, h0⟩ ⟨(q 1).val, h1⟩ ⟨(q 2).val, h2⟩ ⟨(q 3).val - 130, by omega⟩)
        (fun b hb => match b with | ⟨0, _⟩ => rfl | ⟨1, _⟩ => rfl | ⟨2, _⟩ => rfl | ⟨3, _⟩ => absurd rfl hb)
        (by show 130 + ((q 3).val - 130) = (q 3).val; omega)) (splat_zero _)

/-- A 128 × 128 window of the bordered block from bordered row `a`, bordered column `b`, read at cell (r, s), is the
    bordered block at (a + r, b + s). -/
theorem window (v0 : FVec Ideal S4x16x128x128 .f32) (a b : ℕ) (h : S4x16x132x132.Slices ![0, 0, a, b] S4x16x128x128)
    (y : S4x16x128x128.Idx) :
    extractStridedSlice S4x16x128x128 ![0, 0, a, b] (k0_pay2 (F := Ideal) v0) h y
      = padRead (N := 4) v0 (0 + (y 0).val) (0 + (y 1).val) (a + (y 2).val) (b + (y 3).val) := by
  unfold extractStridedSlice
  exact bordered v0 _

/-- The horizontal sums of the block. -/
theorem pay_hor (v0 : FVec Ideal S4x16x128x128 .f32) (y : S4x16x128x128.Idx) :
    k0_pay3 (F := Ideal) v0 y
      = sum5 fun k => padRead (N := 4) v0 (y 0).val (y 1).val (rowOf 0 k + (y 2).val) (colOf 0 k + (y 3).val) := by
  unfold k0_pay3
  dsimp only
  simp only [addf_apply, window, sum5, rowOf, colOf, Nat.zero_add, Nat.sub_zero, Nat.reduceSub]

/-- The vertical sums of the block. -/
theorem pay_ver (v0 : FVec Ideal S4x16x128x128 .f32) (y : S4x16x128x128.Idx) :
    k0_pay4 (F := Ideal) v0 y
      = sum5 fun k => padRead (N := 4) v0 (y 0).val (y 1).val (rowOf 1 k + (y 2).val) (colOf 1 k + (y 3).val) := by
  unfold k0_pay4
  dsimp only
  simp only [addf_apply, window, sum5, rowOf, colOf, Nat.zero_add, Nat.sub_zero, Nat.reduceSub]

/-- The main-diagonal sums of the block. -/
theorem pay_diag (v0 : FVec Ideal S4x16x128x128 .f32) (y : S4x16x128x128.Idx) :
    k0_pay5 (F := Ideal) v0 y
      = sum5 fun k => padRead (N := 4) v0 (y 0).val (y 1).val (rowOf 2 k + (y 2).val) (colOf 2 k + (y 3).val) := by
  unfold k0_pay5
  dsimp only
  simp only [addf_apply, window, sum5, rowOf, colOf, Nat.zero_add, Nat.sub_zero, Nat.reduceSub]

/-- The anti-diagonal sums of the block (the first two terms are added before the other three). -/
theorem pay_adiag (v0 : FVec Ideal S4x16x128x128 .f32) (y : S4x16x128x128.Idx) :
    k0_pay1 (F := Ideal) (k0_pay2 v0) (k0_pay6 v0) y
      = sum5 fun k => padRead (N := 4) v0 (y 0).val (y 1).val (rowOf 3 k + (y 2).val) (colOf 3 k + (y 3).val) := by
  unfold k0_pay1 k0_pay6
  dsimp only
  simp only [addf_apply, window, sum5, rowOf, colOf, Nat.zero_add, Nat.sub_zero, Nat.reduceSub]

theorem hz : (![0, 0, 0, 0] : Fin 4 → Nat) = fun _ => 0 := funext fun a => by fin_cases a <;> rfl

/-- THE OUTPUT BLOCK of one grid point is the directional sums of its input block: the four stores, one per direction,
    each hold their sixteen channels of it, and together they tile the block. -/
theorem block_eq (v0 : FVec Ideal S4x16x128x128 .f32) : out0_1 (F := Ideal) v0 = dirSums (N := 4) v0 := by
  funext y
  unfold out0_1
  rw [View.ld_unit_zero (S := S4x16x128x128) hz]
  refine View.canon_apply_of_pieces (Val := Elt Ideal) (dirSums (N := 4) v0) _ ?_ y (cover0_1 _ _ _ _ y)
  intro p hp x
  simp only [List.mem_cons, List.not_mem_nil, or_false] at hp
  rcases hp with rfl | rfl | rfl | rfl
  · have h1 : (x 1).val < 16 := (x 1).isLt
    rw [dirSums_at v0 (r0_4.emb x) (x 0).val 3 (x 1).val (x 2).val (x 3).val h1
      (by show 0 + 1 * (x 0).val = (x 0).val; omega) (by show 48 + 1 * (x 1).val = 16 * 3 + (x 1).val; omega)
      (by show 0 + 1 * (x 2).val = (x 2).val; omega) (by show 0 + 1 * (x 3).val = (x 3).val; omega)]
    exact pay_adiag v0 x
  · have h1 : (x 1).val < 16 := (x 1).isLt
    rw [dirSums_at v0 (r0_3.emb x) (x 0).val 2 (x 1).val (x 2).val (x 3).val h1
      (by show 0 + 1 * (x 0).val = (x 0).val; omega) (by show 32 + 1 * (x 1).val = 16 * 2 + (x 1).val; omega)
      (by show 0 + 1 * (x 2).val = (x 2).val; omega) (by show 0 + 1 * (x 3).val = (x 3).val; omega)]
    exact pay_diag v0 x
  · have h1 : (x 1).val < 16 := (x 1).isLt
    rw [dirSums_at v0 (r0_2.emb x) (x 0).val 1 (x 1).val (x 2).val (x 3).val h1
      (by show 0 + 1 * (x 0).val = (x 0).val; omega) (by show 16 + 1 * (x 1).val = 16 * 1 + (x 1).val; omega)
      (by show 0 + 1 * (x 2).val = (x 2).val; omega) (by show 0 + 1 * (x 3).val = (x 3).val; omega)]
    exact pay_ver v0 x
  · have h1 : (x 1).val < 16 := (x 1).isLt
    rw [dirSums_at v0 (r0_1.emb x) (x 0).val 0 (x 1).val (x 2).val (x 3).val h1
      (by show 0 + 1 * (x 0).val = (x 0).val; omega) (by show 0 + 1 * (x 1).val = 16 * 0 + (x 1).val; omega)
      (by show 0 + 1 * (x 2).val = (x 2).val; omega) (by show 0 + 1 * (x 3).val = (x 3).val; omega)]
    exact pay_hor v0 x

end Cert.KernelIdeal.BlockValue

end
-- ==== Proof.ArrayValue.lean ====
/-
  From blocks to the whole result array: after the kernel's run the result array is `dirSums` of the argument array.

  The grid has 32 points; point `t` reads batches `4 t, …, 4 t + 3` of the argument (its input block, `iblk_apply`) and
  writes the same batches of the result, all 64 channels, rows and columns of them (`idx_facts`). The directional sums
  never mix batches, so the sums of the input block are the array's sums restricted to those batches
  (`Cert.BoxSum.dirSums_block`): what point `t` writes back is block `t` of `dirSums` of the whole argument (`flushed_eq`).
  Every batch `n` lies in the block of point `n / 4`, so the blocks cover the result array (`cover`) and the array ends
  holding `dirSums` of the argument everywhere (`final`, `run`).
-/
import proofs.«131251_j37701222924357_1_alg».proof.Proof.Gen.KernelIdeal.Value
import proofs.«131251_j37701222924357_1_alg».proof.Proof.BlockValue
import Idealize.ShloMosaic.Lib.Pipeline.Value

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.BoxSum
open Idealize.ShloMosaic.Pipeline (Dat)

variable (m : (ℓ : Loc nD τ sig) → Buf (Elt Ideal) ℓ) (ρ : Dev nD → PrngReg)

/-- Both windows' block index at point `t` is (t, 0, 0, 0): decided over the 32 points. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The input block at point `t` is batches `4 t, …, 4 t + 3` of the argument. -/
theorem iblk_apply (c : Dev nD) (t : Fin cfg0.N) (y : S4x16x128x128.Idx) (k : S128x16x128x128.Idx)
    (h0 : (k 0).val = 4 * t.val + (y 0).val) (h1 : (k 1).val = (y 1).val) (h2 : (k 2).val = (y 2).val)
    (h3 : (k 3).val = (y 3).val) :
    (iblk m c 0 t : Vec Ideal S4x16x128x128 .f32) y
      = (m ((c : Thread nD τ).loc main_arg0) : S128x16x128x128.Idx → Elt Ideal .f32) k := by
  obtain ⟨e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t 0 * 4 + 1 * (y 0).val = (k 0).val; rw [e0, h0]; omega
  | ⟨1, _⟩ => show win0_0.index t 1 * 16 + 1 * (y 1).val = (k 1).val; rw [e1, h1]; omega
  | ⟨2, _⟩ => show win0_0.index t 2 * 128 + 1 * (y 2).val = (k 2).val; rw [e2, h2]; omega
  | ⟨3, _⟩ => show win0_0.index t 3 * 128 + 1 * (y 3).val = (k 3).val; rw [e3, h3]; omega

/-- WHAT POINT `t` WRITES BACK is block `t` of the directional sums of the whole argument. -/
theorem flushed_eq (c : Dev nD) (t : Fin cfg0.N) :
    (dats m 0 c).flushed 1 t
      = ((cfg0.win 1).blk t).view.read (Elt Ideal) (dirSums (N := 128) (m ((c : Thread nD τ).loc main_arg0))) := by
  have ht : t.val < 32 := Nat.lt_of_lt_of_eq t.isLt N_0
  obtain ⟨-, -, -, -, e0, e1, e2, e3⟩ := idx_facts t
  rw [flushed1]
  funext y
  show (out0_1 (iblk m c 0 t) : Vec Ideal S4x64x128x128 .f32) y
    = dirSums (N := 128) (m ((c : Thread nD τ).loc main_arg0)) (((cfg0.win 1).blk t).view.emb y)
  refine (congrFun (block_eq (iblk m c 0 t)) y).trans ?_
  refine dirSums_block (iblk m c 0 t) (m ((c : Thread nD τ).loc main_arg0)) t.val ht
    (fun y' k h0 h1 h2 h3 => iblk_apply m c t y' k h0 h1 h2 h3) y (((cfg0.win 1).blk t).view.emb y) ?_ ?_ ?_ ?_
  · show win0_1.index t 0 * 4 + 1 * (y 0).val = 4 * t.val + (y 0).val; rw [e0]; omega
  · show win0_1.index t 1 * 64 + 1 * (y 1).val = (y 1).val; rw [e1]; omega
  · show win0_1.index t 2 * 128 + 1 * (y 2).val = (y 2).val; rw [e2]; omega
  · show win0_1.index t 3 * 128 + 1 * (y 3).val = (y 3).val; rw [e3]; omega

/-- An index of the result array is in point `t`'s block iff each coordinate is in the block's range on its axis. -/
theorem mem_blk (t : Fin cfg0.N) (i : S128x64x128x128.Idx) :
    i ∈ ((cfg0.win 1).blk t).view.set ↔ ∀ a : Fin 4, win0_1.index t a * S4x64x128x128.size a ≤ (i a).val
      ∧ (i a).val < win0_1.index t a * S4x64x128x128.size a + S4x64x128x128.size a := by
  show i ∈ ((View.whole main_v0).slice (win0_1.rect t)).set ↔ _
  rw [View.set_slice_whole, Rect.mem_set_unit]
  exact Iff.rfl

/-- THE COVER: batch `n` of the result array lies in the block of point `n / 4`. -/
theorem cover (i : S128x64x128x128.Idx) :
    ∃ t : Fin cfg0.N, (cfg0.win 1).flush t = true ∧ i ∈ ((cfg0.win 1).blk t).view.set := by
  have h0 : (i 0).val < 128 := (i 0).isLt
  have h1 : (i 1).val < 64 := (i 1).isLt
  have h2 : (i 2).val < 128 := (i 2).isLt
  have h3 : (i 3).val < 128 := (i 3).isLt
  have hN : cfg0.N = 32 := N_0
  have hq : (i 0).val / 4 < cfg0.N := by rw [hN]; omega
  obtain ⟨-, -, -, -, e0, e1, e2, e3⟩ := idx_facts ⟨(i 0).val / 4, hq⟩
  refine ⟨⟨(i 0).val / 4, hq⟩, flush0_1 _, ?_⟩
  rw [mem_blk]
  intro a
  match a with
  | ⟨0, _⟩ =>
    show win0_1.index ⟨(i 0).val / 4, hq⟩ 0 * 4 ≤ (i 0).val ∧ (i 0).val < win0_1.index ⟨(i 0).val / 4, hq⟩ 0 * 4 + 4
    rw [e0]; show (i 0).val / 4 * 4 ≤ (i 0).val ∧ (i 0).val < (i 0).val / 4 * 4 + 4; omega
  | ⟨1, _⟩ =>
    show win0_1.index ⟨(i 0).val / 4, hq⟩ 1 * 64 ≤ (i 1).val ∧ (i 1).val < win0_1.index ⟨(i 0).val / 4, hq⟩ 1 * 64 + 64
    rw [e1]; omega
  | ⟨2, _⟩ =>
    show win0_1.index ⟨(i 0).val / 4, hq⟩ 2 * 128 ≤ (i 2).val ∧ (i 2).val < win0_1.index ⟨(i 0).val / 4, hq⟩ 2 * 128 + 128
    rw [e2]; omega
  | ⟨3, _⟩ =>
    show win0_1.index ⟨(i 0).val / 4, hq⟩ 3 * 128 ≤ (i 3).val ∧ (i 3).val < win0_1.index ⟨(i 0).val / 4, hq⟩ 3 * 128 + 128
    rw [e3]; omega

/-- THE RESULT ARRAY after the run: the directional sums of the argument. -/
theorem final (c : Dev nD) :
    (dats m 0 c).arrAt 1 cfg0.N = dirSums (N := 128) (m ((c : Thread nD τ).loc main_arg0)) :=
  (dats m 0 c).arrAt_eq_of_cover 1 (dirSums (N := 128) (m ((c : Thread nD τ).loc main_arg0)))
    (fun t _ => flushed_eq m c t) cover

/-- THE KERNEL'S RUN, read: every weakly fair execution ends with the result array at the directional sums of the
    argument array, and the argument unchanged. -/
theorem run : θ_run defs (onTc (τ := τ) (main (F := Ideal))) ⟨m, fun _ => 0, ρ⟩ fun r => ∀ c : Dev nD,
      r.2.mem ((c : Thread nD τ).loc main_v0) = dirSums (N := 128) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefValue.lean ====
/-
  The reference's result array is `dirSums` of its argument, index by index.

  The reference first lays the border of zeros around every board in one step (the host's padding operation with the
  value 0, an integer zero converted to a float), so the padded array read at bordered coordinates is `padRead` of the
  argument (`pad_read`). Each direction is then five shifted windows of the padded array added from left to right onto a
  zero array; since `0 + a = a` for every extended real, that is the five-term sum of the specification (`hor`, `ver`,
  `diag`, `adiag`). Laying the four directions end to end along the channel axis puts direction `d` of channel `c` at
  channel `16 d + c` (`result_eq`).
-/
import proofs.«131251_j37701222924357_1_alg».proof.Proof.Gen.ReferenceIdeal.Read
import proofs.«131251_j37701222924357_1_alg».proof.Proof.Spec
import Idealize.ShloMosaic.Lib.KernelVsHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.BoxSum

/-- The padding value, the integer zero converted to a float, is the extended real zero. -/
theorem pad_value (i : S_.Idx) : val_main_call0_v0 (F := Ideal) i = 0 := by
  rw [val_main_call0_v0_apply, val_main_c_apply]
  show ((((0#32 : BitVec 32).toInt : ℤ) : ℝ) : EReal) = 0
  simp

/-- The padded array at bordered coordinates: the argument two rows and two columns back when both coordinates are
    off the border, the padding value zero on the border. -/
theorem pad_read (x : FVec Ideal S128x16x128x128 .f32) (q : S128x16x132x132.Idx) :
    val_main_v0 (F := Ideal) x q = padRead (N := 128) x (q 0).val (q 1).val (q 2).val (q 3).val := by
  have h0 : (q 0).val < 128 := (q 0).isLt
  have h1 : (q 1).val < 16 := (q 1).isLt
  have h2 : (q 2).val < 132 := (q 2).isLt
  have h3 : (q 3).val < 132 := (q 3).isLt
  unfold val_main_v0 padRead
  by_cases hh : (2 ≤ (q 2).val ∧ (q 2).val < 130) ∧ (2 ≤ (q 3).val ∧ (q 3).val < 130)
  · rw [dif_pos ⟨h0, h1, hh⟩]
    refine pad_apply_of_inside _ _ _ _ _ _ _ q _ fun a => ?_
    match a with
    | ⟨0, _⟩ => show (q 0).val = 0 + (q 0).val * (0 + 1); omega
    | ⟨1, _⟩ => show (q 1).val = 0 + (q 1).val * (0 + 1); omega
    | ⟨2, _⟩ => show (q 2).val = 2 + ((q 2).val - 2) * (0 + 1); omega
    | ⟨3, _⟩ => show (q 3).val = 2 + ((q 3).val - 2) * (0 + 1); omega
  · rw [dif_neg (fun h' => hh h'.2.2)]
    by_cases h2' : 2 ≤ (q 2).val ∧ (q 2).val < 130
    · have h3' : ¬(2 ≤ (q 3).val ∧ (q 3).val < 130) := fun h => hh ⟨h2', h⟩
      refine (pad_apply_of_not_inside _ _ _ _ _ _ _ q ⟨3, by decide⟩ ?_).trans (pad_value _)
      show ¬(2 ≤ (q 3).val ∧ ((q 3).val - 2) % (0 + 1) = 0 ∧ ((q 3).val - 2) / (0 + 1) < 128)
      omega
    · refine (pad_apply_of_not_inside _ _ _ _ _ _ _ q ⟨2, by decide⟩ ?_).trans (pad_value _)
      show ¬(2 ≤ (q 2).val ∧ ((q 2).val - 2) % (0 + 1) = 0 ∧ ((q 2).val - 2) / (0 + 1) < 128)
      omega

/-- The horizontal sums: bordered row `2 + r`, bordered columns `s, …, 4 + s`. -/
theorem hor (x : FVec Ideal S128x16x128x128 .f32) (i : S128x16x128x128.Idx) :
    val_main_v11 (F := Ideal) x i
      = sum5 fun k => padRead (N := 128) x (i 0).val (i 1).val (rowOf 0 k + (i 2).val) (colOf 0 k + (i 3).val) := by
  rw [val_main_v11_apply, val_main_v9_apply, val_main_v7_apply, val_main_v5_apply, val_main_v3_apply, val_main_v2_apply,
    val_main_cst_apply, val_main_v1_apply, val_main_v4_apply, val_main_v6_apply, val_main_v8_apply, val_main_v10_apply]
  simp only [pad_read]
  simp only [Ideal.addf_def, Ideal.ofBits_def, Ideal.ofBits_zero_f32, zero_add, sum5, rowOf, colOf, Nat.zero_add]

/-- The vertical sums: bordered rows `r, …, 4 + r`, bordered column `2 + s`. -/
theorem ver (x : FVec Ideal S128x16x128x128 .f32) (i : S128x16x128x128.Idx) :
    val_main_v22 (F := Ideal) x i
      = sum5 fun k => padRead (N := 128) x (i 0).val (i 1).val (rowOf 1 k + (i 2).val) (colOf 1 k + (i 3).val) := by
  rw [val_main_v22_apply, val_main_v20_apply, val_main_v18_apply, val_main_v16_apply, val_main_v14_apply, val_main_v13_apply,
    val_main_cst_0_apply, val_main_v12_apply, val_main_v15_apply, val_main_v17_apply, val_main_v19_apply, val_main_v21_apply]
  simp only [pad_read]
  simp only [Ideal.addf_def, Ideal.ofBits_def, Ideal.ofBits_zero_f32, zero_add, sum5, rowOf, colOf, Nat.zero_add]

/-- The main-diagonal sums: bordered cells `(k + r, k + s)`. -/
theorem diag (x : FVec Ideal S128x16x128x128 .f32) (i : S128x16x128x128.Idx) :
    val_main_v33 (F := Ideal) x i
      = sum5 fun k => padRead (N := 128) x (i 0).val (i 1).val (rowOf 2 k + (i 2).val) (colOf 2 k + (i 3).val) := by
  rw [val_main_v33_apply, val_main_v31_apply, val_main_v29_apply, val_main_v27_apply, val_main_v25_apply, val_main_v24_apply,
    val_main_cst_1_apply, val_main_v23_apply, val_main_v26_apply, val_main_v28_apply, val_main_v30_apply, val_main_v32_apply]
  simp only [pad_read]
  simp only [Ideal.addf_def, Ideal.ofBits_def, Ideal.ofBits_zero_f32, zero_add, sum5, rowOf, colOf, Nat.zero_add]

/-- The anti-diagonal sums: bordered cells `(k + r, 4 - k + s)`. -/
theorem adiag (x : FVec Ideal S128x16x128x128 .f32) (i : S128x16x128x128.Idx) :
    val_main_v44 (F := Ideal) x i
      = sum5 fun k => padRead (N := 128) x (i 0).val (i 1).val (rowOf 3 k + (i 2).val) (colOf 3 k + (i 3).val) := by
  rw [val_main_v44_apply, val_main_v42_apply, val_main_v40_apply, val_main_v38_apply, val_main_v36_apply, val_main_v35_apply,
    val_main_cst_2_apply, val_main_v34_apply, val_main_v37_apply, val_main_v39_apply, val_main_v41_apply, val_main_v43_apply]
  simp only [pad_read]
  simp only [Ideal.addf_def, Ideal.ofBits_def, Ideal.ofBits_zero_f32, zero_add, sum5, rowOf, colOf, Nat.zero_add, Nat.sub_zero, Nat.reduceSub]

/-- The index into one direction's array under a result index: the result's batch, row and column, channel `c`. -/
abbrev under (j : S128x64x128x128.Idx) (c : ℕ) (hc : c < 16) : S128x16x128x128.Idx :=
  ix4 ⟨(j 0).val, (j 0).isLt⟩ ⟨c, hc⟩ ⟨(j 2).val, (j 2).isLt⟩ ⟨(j 3).val, (j 3).isLt⟩

/-- Off the channel axis it has the result index's coordinates. -/
private theorem off_axis (j : S128x64x128x128.Idx) (c : ℕ) (hc : c < 16) :
    ∀ b : Fin S128x16x128x128.rank, b.cast (rfl : S128x16x128x128.rank = S128x64x128x128.rank) ≠ (1 : Fin 4) →
      (under j c hc b).val = (j (b.cast rfl)).val := fun b hb =>
  match b with
  | ⟨0, _⟩ => rfl
  | ⟨1, _⟩ => absurd rfl hb
  | ⟨2, _⟩ => rfl
  | ⟨3, _⟩ => rfl

/-- THE REFERENCE'S RESULT: the four directions laid end to end along the channel axis are the directional sums. -/
theorem result_eq (x : FVec Ideal S128x16x128x128 .f32) : val_main_v45 (F := Ideal) x = dirSums (N := 128) x := by
  funext j
  have h1 : (j 1).val < 64 := (j 1).isLt
  unfold val_main_v45
  by_cases c0 : (j 1).val < 16
  · rw [dirSums_at x j (j 0).val 0 (j 1).val (j 2).val (j 3).val c0 rfl (by omega) rfl rfl]
    exact Eq.trans (concatenate_apply_piece (1 : Fin 4) _ _ j 0 (by show (0 : ℕ) < 4; omega) S128x16x128x128
      (val_main_v11 (F := Ideal) x) rfl rfl 0 rfl (under j (j 1).val c0) (off_axis j _ _)
      (by show 0 + (j 1).val = (j 1).val; omega)) (hor x (under j (j 1).val c0))
  by_cases c1 : (j 1).val < 32
  · have hc : (j 1).val - 16 < 16 := by omega
    rw [dirSums_at x j (j 0).val 1 ((j 1).val - 16) (j 2).val (j 3).val hc rfl (by omega) rfl rfl]
    exact Eq.trans (concatenate_apply_piece (1 : Fin 4) _ _ j 1 (by show (1 : ℕ) < 4; omega) S128x16x128x128
      (val_main_v22 (F := Ideal) x) rfl rfl 16 rfl (under j _ hc) (off_axis j _ _)
      (by show 16 + ((j 1).val - 16) = (j 1).val; omega)) (ver x (under j _ hc))
  by_cases c2 : (j 1).val < 48
  · have hc : (j 1).val - 32 < 16 := by omega
    rw [dirSums_at x j (j 0).val 2 ((j 1).val - 32) (j 2).val (j 3).val hc rfl (by omega) rfl rfl]
    exact Eq.trans (concatenate_apply_piece (1 : Fin 4) _ _ j 2 (by show (2 : ℕ) < 4; omega) S128x16x128x128
      (val_main_v33 (F := Ideal) x) rfl rfl 32 rfl (under j _ hc) (off_axis j _ _)
      (by show 32 + ((j 1).val - 32) = (j 1).val; omega)) (diag x (under j _ hc))
  · have hc : (j 1).val - 48 < 16 := by omega
    rw [dirSums_at x j (j 0).val 3 ((j 1).val - 48) (j 2).val (j 3).val hc rfl (by omega) rfl rfl]
    exact Eq.trans (concatenate_apply_piece (1 : Fin 4) _ _ j 3 (by show (3 : ℕ) < 4; omega) S128x16x128x128
      (val_main_v44 (F := Ideal) x) rfl rfl 48 rfl (under j _ hc) (off_axis j _ _)
      (by show 48 + ((j 1).val - 48) = (j 1).val; omega)) (adiag x (under j _ hc))

end Cert.ReferenceIdeal.RefValue

end
-- ==== Proof.lean ====
/-
  The certificate of the directional five-in-a-row sums: a kernel that, block of four batches by block, borders every
  128 × 128 board with two rows and two columns of zeros and adds, for each of the four directions (horizontal, vertical,
  main diagonal, anti-diagonal), five shifted windows of the bordered board, against a reference that borders the whole
  array at once, adds the same windows onto a zero array, and lays the four directions end to end along the channel axis.

  Both results are the one function `Cert.BoxSum.dirSums` of the argument array (Proof/Spec.lean): the kernel's by
  Proof/BlockValue.lean (one block) and Proof/ArrayValue.lean (the blocks tile the array; no sum crosses a batch), the
  reference's by Proof/RefValue.lean. The two sides add the same five terms in the same order, the reference starting
  from zero; the only law used is `0 + a = a`, which holds for every extended real, so the finiteness of the inputs is
  never needed. The idealization rewrote nothing, so there is nothing to preserve; the frames are the generated ones,
  the reference's its generated run with the result dropped.
-/
import proofs.«131251_j37701222924357_1_alg».proof.Defs
import proofs.«131251_j37701222924357_1_alg».proof.Proof.Gen.Kernel
import proofs.«131251_j37701222924357_1_alg».proof.Proof.Gen.Kernel.Skeleton
import proofs.«131251_j37701222924357_1_alg».proof.Proof.Gen.Kernel.Launch
import proofs.«131251_j37701222924357_1_alg».proof.Proof.Gen.Kernel.Points
import proofs.«131251_j37701222924357_1_alg».proof.Proof.Gen.Kernel.Frame
import proofs.«131251_j37701222924357_1_alg».proof.Proof.Gen.KernelIdeal
import proofs.«131251_j37701222924357_1_alg».proof.Proof.Gen.KernelIdeal.Skeleton
import proofs.«131251_j37701222924357_1_alg».proof.Proof.Gen.KernelIdeal.Launch
import proofs.«131251_j37701222924357_1_alg».proof.Proof.Gen.KernelIdeal.Points
import proofs.«131251_j37701222924357_1_alg».proof.Proof.Gen.KernelIdeal.Frame
import proofs.«131251_j37701222924357_1_alg».proof.Proof.Gen.ReferenceIdeal
import proofs.«131251_j37701222924357_1_alg».proof.Proof.Gen.Pre_finite_inputs
import proofs.«131251_j37701222924357_1_alg».proof.Proof.Gen.KernelIdeal.Value
import proofs.«131251_j37701222924357_1_alg».proof.Proof.Gen.ReferenceIdeal.Run
import proofs.«131251_j37701222924357_1_alg».proof.Proof.Gen.ReferenceIdeal.Read
import proofs.«131251_j37701222924357_1_alg».proof.Proof.ArrayValue
import proofs.«131251_j37701222924357_1_alg».proof.Proof.RefValue
import Idealize.ShloMosaic.Adequacy
import Idealize.ShloMosaic.Init

noncomputable section

namespace Cert.Proof

open Idealize.ShloMosaic Idealize.SL.Sem

/-- The kernel as printed runs, and leaves its argument as it found it. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From arguments that agree, the kernel's result array and the reference's both end at the directional sums of the
    argument: equal, element by element. -/
theorem algebraic : Cert.algebraic_KernelIdeal_ReferenceIdeal := by
  intro m ρ m' ρ' _ hagree
  refine ⟨fun c => Cert.BoxSum.dirSums (N := 128) (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
